-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : FVec F S32x3x512x512 .f32) (main_arg1 : FVec F S32x3x512x512 .f32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  let main_v4 : FVec F S32x3x512x512 .f32 := Host.absf main_arg1
  let main_cst_0 : FVec F S_ .f32 := constant S_ .f32 0x7F800000#32
  let main_v5 : FVec F S32x3x512x512 .f32 := broadcastInDim S32x3x512x512 ![] bcast_S_S32x3x512x512 main_cst_0
  let main_v6 : IVec S32x3x512x512 1 := cmpf .olt main_v4 main_v5
  let main_c_1 : IVec S_ 1 := constantI S_ 1 1#1
  let main_v7 : IVec S_ 1 := (fun x v => Host.reduce IntOp.andi x v reducesTo_S32x3x512x512_S_d0_1_2_3 h_S_) main_v6 main_c_1
  let main_v8 : IVec S_ 1 := andi main_v3 main_v7
  main_v8
-- ==== Kernel.lean ====
abbrev S32x3x512x512 : Shape := ⟨4, ![32, 3, 512, 512]⟩
abbrev S49152x512 : Shape := ⟨2, ![49152, 512]⟩
abbrev S2x1x1 : Shape := ⟨3, ![2, 1, 1]⟩
abbrev S2048x512 : Shape := ⟨2, ![2048, 512]⟩
abbrev S1x1x1 : Shape := ⟨3, ![1, 1, 1]⟩
abbrev S1x2048x512 : Shape := ⟨3, ![1, 2048, 512]⟩
abbrev S1 : Shape := ⟨1, ![1]⟩
abbrev S_ : Shape := ⟨0, ![]⟩

abbrev nBuf : Space → Nat
  | .hbm => 11
  | .vmem => 6
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S49152x512, .f32⟩
  | .hbm, ⟨3, _⟩ => ⟨S49152x512, .f32⟩
  | .hbm, ⟨4, _⟩ => ⟨S2x1x1, .f32⟩
  | .hbm, ⟨5, _⟩ => ⟨S1x1x1, .f32⟩
  | .hbm, ⟨6, _⟩ => ⟨S_, .f32⟩
  | .hbm, ⟨7, _⟩ => ⟨S1x1x1, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S1x1x1, .f32⟩
  | .local _ .vmem, ⟨5, _⟩ => ⟨S1x1x1, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S32x3x512x512_S49152x512 : S32x3x512x512.ShapeCasts S49152x512
  inb_S1x1x1_S1x1x1_0_0_0 : ∀ a, (![0, 0, 0] : Fin 3 → Nat) a + S1x1x1.size a ≤ S1x1x1.size a
  h_S1x1x1 : 0 < S1x1x1.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  natLt_1_32 : 1 < 32
  shapeCasts_S2048x512_S1x2048x512 : S2048x512.ShapeCasts S1x2048x512
  reduces_S1x2048x512_S1 : S1x2048x512.Reduces [1, 2] S1
  shapeCasts_S1_S1x1x1 : S1.ShapeCasts S1x1x1
  inpos_S1x1x1_p0_0_0 : ∀ a, (![0, 0, 0] : Fin 3 → Nat) a < S1x1x1.size a
  shapeCasts_S1x1x1_S1x1x1 : S1x1x1.ShapeCasts S1x1x1
  slices_S2x1x1_S1x1x1_0_0_0 : S2x1x1.Slices ![0, 0, 0] S1x1x1
  shapeCasts_S1x1x1_S_ : S1x1x1.ShapeCasts S_
  slices_S2x1x1_S1x1x1_1_0_0 : S2x1x1.Slices ![1, 0, 0] S1x1x1
  shapeCasts_S_S_ : S_.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S49152x512.size a
  hwx0_0 : ∀ i : grid0.Coords, EltTy.bits .f32 = 32 ∨ (Rect.block (s := S49152x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S49152x512.size a
  hwx0_1 : ∀ i : grid0.Coords, EltTy.bits .f32 = 32 ∨ (Rect.block (s := S49152x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x3x512x512 : Shape := ⟨4, ![32, 3, 512, 512]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S_, .f32⟩
  | .hbm, ⟨3, _⟩ => ⟨S32x3x512x512, .f32⟩
  | .hbm, ⟨4, _⟩ => ⟨S32x3x512x512, .i1⟩
  | .hbm, ⟨5, _⟩ => ⟨S32x3x512x512, .f32⟩
  | .hbm, ⟨6, _⟩ => ⟨S32x3x512x512, .f32⟩
  | .hbm, ⟨7, _⟩ => ⟨S32x3x512x512, .f32⟩
  | .hbm, ⟨8, _⟩ => ⟨S32x3x512x512, .f32⟩
  | .hbm, ⟨9, _⟩ => ⟨S_, .f32⟩
  | .hbm, ⟨10, _⟩ => ⟨S_, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts₀]

class Facts : Prop extends Facts₀ where

variable [Facts]
-- ==== Proof.KernelPieces.lean ====
/-
  What the kernel body leaves in the accumulator cell, case by case, for any float instance.

  The body runs in one of two ways. At the first step of a core's walk it stores zero into the one-element output
  block, reads it back, and stores "what it read plus this tile's partial sum": the cell ends at the payload of the two
  input tiles over the zero block. At every later step it reads what the step before left and stores that plus the
  tile's partial sum: the cell ends at the payload of the two input tiles over the previous contents.
  In both cases the last store covers the whole (one-element) block, so reading the cell back is reading that store.
-/
import proofs.«107817_j5712306504420_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A later step of a core's walk: over the previous contents `xo` the cell ends at the payload of the two tiles and
    `xo` — its one store covers the block, and its three reads are of whole buffers. -/
theorem out_later (c : Dev nD) (i : grid0.Coords) (a2 : Memref sig .tc .vmem S2048x512 .f32) (h2 : a2.IsWhole)
    (a3 : Memref sig .tc .vmem S2048x512 .f32) (h3 : a3.IsWhole) (a4 : Memref sig .tc .vmem S1x1x1 .f32) (h4 : a4.IsWhole)
    (hc : ¬cond0_0 i) (x0 x1 : Vec F S2048x512 .f32) (xo : Vec F S1x1x1 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  rw [View.canon_unit_zero hz3]
  simp only [View.readAt_eq_ld, h2.read_unread, h3.read_unread, h4.read_unread, View.ld_unit_zero (S := S2048x512) hz2,
    View.ld_unit_zero (S := S1x1x1) hz3]

/-- The first step of a core's walk: the cell ends at the payload of the two tiles over the zero block — the zero
    store is read back whole before the accumulating store replaces it. -/
theorem out_first (c : Dev nD) (i : grid0.Coords) (a2 : Memref sig .tc .vmem S2048x512 .f32) (h2 : a2.IsWhole)
    (a3 : Memref sig .tc .vmem S2048x512 .f32) (h3 : a3.IsWhole) (a4 : Memref sig .tc .vmem S1x1x1 .f32) (h4 : a4.IsWhole)
    (hc : cond0_0 i) (x0 x1 : Vec F S2048x512 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, View.ld_unit_zero (S := S2048x512) hz2]

end Cert.KernelIdeal.Pieces

end
-- ==== Proof.LibBlockSum.lean ====
/-
  A sum over `a · b` consecutive rows, taken block by block.

  A kernel that walks an array of `a · b` rows in `a` blocks of `b` rows and accumulates one partial sum per block
  computes `Σ_p Σ_q f (p · b + q)`; a reference that reduces the whole axis at once computes `Σ_r f r`.
  In any commutative additive monoid (the extended reals included: their addition is commutative and associative
  at the infinities too) the two are equal, and so is the three-level form `a · b · c` rows walked as
  `a` groups of `b` blocks of `c` rows.
-/
import Mathlib.Algebra.BigOperators.Fin
import Mathlib.Logic.Equiv.Fin.Basic

namespace LibBlockSum

variable {M : Type} [AddCommMonoid M]

/-- Rows `0 … a·b − 1` summed at once are the `a` blocks of `b` rows summed one after the other. -/
theorem sum_blocks (a b : ℕ) (f : ℕ → M) :
    ∑ r : Fin (a * b), f r.val = ∑ p : Fin a, ∑ q : Fin b, f (p.val * b + q.val) := by
  rw [← Fintype.sum_prod_type' (f := fun (p : Fin a) (q : Fin b) => f (p.val * b + q.val))]
  refine (Fintype.sum_equiv finProdFinEquiv _ _ fun x => ?_).symm
  rw [finProdFinEquiv_apply_val, Nat.mul_comm b, Nat.add_comm]

/-- Three levels: `a` groups of `b` blocks of `c` rows. -/
theorem sum_blocks₃ (a b c : ℕ) (f : ℕ → M) :
    ∑ r : Fin (a * b * c), f r.val
      = ∑ p : Fin a, ∑ q : Fin b, ∑ s : Fin c, f ((p.val * b + q.val) * c + s.val) := by
  rw [sum_blocks (a * b) c f, sum_blocks a b fun k => ∑ s : Fin c, f (k * c + s.val)]

end LibBlockSum
-- ==== Proof.MaskedL1.lean ====
/-
  The masked L1 sum, as mathematics (no program is mentioned here).

  One entry contributes `|x − y|` where `y ≠ 0` and nothing where `y = 0`: on the extended reals,
  `max (x − y) (−(x − y))` times the indicator of `y ≠ 0`. Two spellings of the indicator meet it: a one-bit
  "not equal" widened to 32 bits and read as a signed integer, and the same bit read as an unsigned integer — a bit is
  `0` or `1` either way.

  The total over a `49152 × 512` array is the sum, over its 24 tiles of 2048 consecutive rows, of each tile's total:
  addition on the extended reals is commutative and associative (at the infinities too), so a sum may be regrouped; no
  finiteness is used.
-/
import Idealize.ShloMosaic.PureOps.Ideal
import Idealize.ShloMosaic.PureOps.Ideal.Laws
import Idealize.ShloMosaic.Lib.ValueIdx
import proofs.«107817_j5712306504420_2_alg».proof.Proof.LibBlockSum

noncomputable section

open scoped BigOperators
open Idealize.ShloMosaic Idealize.ShloMosaic.ValueIdx

namespace MaskedL1

/-- One entry's contribution: `|x − y|` where `y ≠ 0`, zero where `y = 0`. -/
def term (x y : EReal) : EReal := max (x - y) (-(x - y)) * (if y = 0 then 0 else 1)

/-- A bit widened to 32 bits and read signed is `0` or `1`. -/
theorem toInt_ofBool (b : Bool) : ((BitVec.ofBool b).setWidth 32).toInt = if b then 1 else 0 := by
  cases b <;> rfl

/-- A bit read unsigned is `0` or `1`. -/
theorem toNat_ofBool (b : Bool) : (BitVec.ofBool b).toNat = if b then 1 else 0 := by
  cases b <;> rfl

/-- The indicator as "ordered not-equal to the zero word, widened, read signed": the entry's contribution. -/
theorem term_of_signed (x y : EReal) :
    max (x - y) (-(x - y))
        * ((((Ideal.cmp .one y (Ideal.ofBits .f32 0x00000000#32)).setWidth 32).toInt : ℝ) : EReal) = term x y := by
  unfold term
  simp only [Ideal.cmp]
  rw [Ideal.ofBits_zero_f32, toInt_ofBool]
  by_cases h : y = 0 <;> simp [h]

/-- The indicator as "unordered not-equal to the zero word, read unsigned": the same contribution (the extended reals
    have no unordered pair). -/
theorem term_of_unsigned (x y : EReal) :
    max (x - y) (-(x - y))
        * (((Ideal.cmp .une y (Ideal.ofBits .f32 0x00000000#32)).toNat : ℝ) : EReal) = term x y := by
  unfold term
  simp only [Ideal.cmp]
  rw [Ideal.ofBits_zero_f32, toNat_ofBool]
  by_cases h : y = 0 <;> simp [h]

/-- The total over the `49152 × 512` array, tile by tile: tile `p` holds rows `2048 p … 2048 p + 2047`. -/
theorem sum_tiles {M : Type} [AddCommMonoid M] (g : (⟨2, ![49152, 512]⟩ : Shape).Idx → M) :
    ∑ j, g j = ∑ p : Fin 24, ∑ y : (⟨2, ![2048, 512]⟩ : Shape).Idx,
      g (ix2 (⟨p.val * 2048 + (y 0).val, by have := p.isLt; have := idx2_lt0 y; omega⟩ : Fin 49152) (y 1)) := by
  let F : ℕ → M := fun r => if h : r < 49152 then ∑ q : Fin 512, g (ix2 ⟨r, h⟩ q) else 0
  have hF : ∀ (r : ℕ) (h : r < 49152), F r = ∑ q : Fin 512, g (ix2 ⟨r, h⟩ q) := fun r h => dif_pos h
  calc ∑ j, g j = ∑ a : Fin 49152, ∑ b : Fin 512, g (ix2 a b) := sum_idx2 g
    _ = ∑ a : Fin (24 * 2048), F a.val := Finset.sum_congr rfl fun a _ => (hF a.val a.isLt).symm
    _ = ∑ p : Fin 24, ∑ q : Fin 2048, F (p.val * 2048 + q.val) := LibBlockSum.sum_blocks 24 2048 F
    _ = _ := Finset.sum_congr rfl fun p _ => by
        rw [sum_idx2]
        exact Finset.sum_congr rfl fun q _ => hF _ _

end MaskedL1

end
-- ==== Proof.KernelPayload.lean ====
/-
  The kernel body's arithmetic, read on the extended reals.

  The body's one accumulating store writes, into the one-element block, the previous contents plus the tile's partial
  sum: the two `2048 × 512` input tiles are compared entry by entry (`|x − y|` times the indicator of `y ≠ 0`), the
  products are re-laid as `1 × 2048 × 512` and summed over the last two axes into one number. A re-laying keeps every
  entry, so the sum over the re-laid tile is the sum over the tile; and the reset store writes the number zero.
-/
import proofs.«107817_j5712306504420_2_alg».proof.Proof.Gen.KernelIdeal.Skeleton
import proofs.«107817_j5712306504420_2_alg».proof.Proof.MaskedL1
import Idealize.ShloMosaic.Lib.Pipeline.Value

noncomputable section

open scoped BigOperators
open Idealize.ShloMosaic Idealize.ShloMosaic.ValueIdx

namespace Cert.KernelIdeal.Payload

open Cert.KernelIdeal Cert.KernelIdeal.Gen

/-- The tile's entries as the body computes them: `|x − y|` times the widened, signed reading of "`y` is not zero". -/
def entries (x0 x1 : FVec Ideal S2048x512 .f32) : FVec Ideal S2048x512 .f32 :=
  mulf (absf (subf x0 x1))
    (sitofp .f32 (extui 32 (cmpf .one x1 (broadcast S2048x512 (Scalar.ofBits (F := Ideal) .f32 0x00000000#32))) natLt_1_32))

/-- Entry by entry that is the masked absolute difference. -/
theorem entries_apply (x0 x1 : FVec Ideal S2048x512 .f32) (y : S2048x512.Idx) :
    entries x0 x1 y = MaskedL1.term (x0 y) (x1 y) :=
  MaskedL1.term_of_signed (x0 y) (x1 y)

/-- The body's reduction of a tile: re-laid as `1 × 2048 × 512` and summed over the last two axes into one number. -/
def tileReduce (v : FVec Ideal S2048x512 .f32) : FVec Ideal S1 .f32 :=
  multiReduction .add [1, 2] S1 (shapeCast S1x2048x512 v shapeCasts_S2048x512_S1x2048x512) 0x00000000#32
    reduces_S1x2048x512_S1 (.inl rfl) rfl

/-- That number is the sum of the tile's entries: the reduction into a one-element shape is the total over the re-laid
    tile, and the re-laying is a bijection of the index sets. -/
theorem tileReduce_apply (v : FVec Ideal S2048x512 .f32) (j : S1.Idx) :
    tileReduce v j = ∑ y : S2048x512.Idx, v y := by
  unfold tileReduce
  refine (Ideal.multiReduction_add_total _ _ reduces_S1x2048x512_S1 (fun b => ?_) _ _ j).trans ?_
  · fin_cases b; rfl
  · exact Fintype.sum_equiv (Shape.reshapeEquiv shapeCasts_S2048x512_S1x2048x512) _ _ fun _ => rfl

/-- The reset store writes zero. -/
theorem reset_apply (i : S1x1x1.Idx) : k0_pay1 (F := Ideal) i = 0 :=
  Ideal.ofBits_zero_f32

/-- The accumulating store's value in these words: the printed operations, grouped (the same term, structurally). -/
theorem accumulate_eq (x0 x1 : Vec Ideal S2048x512 .f32) (acc : Vec Ideal S1x1x1 .f32) :
    k0_pay2 (F := Ideal) x0 x1 acc
      = addf (shapeCast S1x1x1 acc shapeCasts_S1x1x1_S1x1x1)
          (broadcast S1x1x1 (extractAt ![0, 0, 0]
            (shapeCast S1x1x1
              (tileReduce (entries (shapeCast S2048x512 x0 shapeCasts_S2048x512_S2048x512)
                (shapeCast S2048x512 x1 shapeCasts_S2048x512_S2048x512)))
              shapeCasts_S1_S1x1x1)
            inpos_S1x1x1_p0_0_0)) :=
  rfl

/-- The accumulating store writes the previous contents plus the tile's masked L1 sum. -/
theorem accumulate_apply (x0 x1 : Vec Ideal S2048x512 .f32) (acc : Vec Ideal S1x1x1 .f32) (i : S1x1x1.Idx) :
    k0_pay2 (F := Ideal) x0 x1 acc i = acc i + ∑ y : S2048x512.Idx, MaskedL1.term (x0 y) (x1 y) := by
  rw [accumulate_eq]
  simp only [shapeCast_self]
  have hR := tileReduce_apply (entries x0 x1)
  generalize tileReduce (entries x0 x1) = R at hR ⊢
  show acc i + R _ = _
  rw [hR]
  exact congrArg (acc i + ·) (Finset.sum_congr rfl fun y _ => entries_apply x0 x1 y)

end Cert.KernelIdeal.Payload

end
-- ==== Proof.KernelFold.lean ====
/-
  The accumulator over a core's walk, and the output array after the run (at the ideal instance).

  The grid has 24 steps: step `n` belongs to core `n / 12` and is that core's step `n % 12`. Each step adds its
  tile's masked L1 sum to the one-element output block, which is reset to zero at a core's first step and written back
  to row `n / 12` of the `2 × 1 × 1` output after the core's last step. So the cell after step `12 q + j` holds
  `0 + Σ_{s ≤ j} tileSum (12 q + s)`, and the output array ends with core `q`'s total `0 + Σ_{s < 12} tileSum (12 q + s)`
  in row `q`: the two write-backs cover the array.
-/
import proofs.«107817_j5712306504420_2_alg».proof.Proof.Gen.KernelIdeal.Frame
import proofs.«107817_j5712306504420_2_alg».proof.Proof.KernelPieces
import proofs.«107817_j5712306504420_2_alg».proof.Proof.KernelPayload
import Idealize.ShloMosaic.Lib.Pipeline.Value

noncomputable section

open scoped BigOperators
open Idealize.ShloMosaic Idealize.ShloMosaic.TcCoe Idealize.SL.Sem
open Idealize.ShloMosaic.Pipeline (Dat)

namespace Cert.KernelIdeal.Fold

open Cert.KernelIdeal Cert.KernelIdeal.Gen

variable (m : (ℓ : Loc nD τ sig) → Buf (Elt Ideal) ℓ)

/-- The two input tiles step `n` reads. -/
abbrev tileX (c : Dev nD) (n : ℕ) (h : n < cfg0.N) : Vec Ideal S2048x512 .f32 := iblk m c 0 ⟨n, h⟩
abbrev tileY (c : Dev nD) (n : ℕ) (h : n < cfg0.N) : Vec Ideal S2048x512 .f32 := iblk m c 1 ⟨n, h⟩

/-- Step `n`'s addend: the masked L1 sum of its two tiles (zero past the grid, where nothing is ever read). -/
def tileSum (c : Dev nD) (n : ℕ) : EReal :=
  if h : n < cfg0.N then ∑ y : S2048x512.Idx, MaskedL1.term (tileX m c n h y) (tileY m c n h y) else 0

/-- What a core's first step leaves, and how a later step changes what it finds. -/
def first (c : Dev nD) (n : ℕ) (h : n < cfg0.N) : Vec Ideal S1x1x1 .f32 :=
  k0_pay2 (tileX m c n h) (tileY m c n h) (k0_pay1 (F := Ideal))
def step (c : Dev nD) (n : ℕ) (h : n < cfg0.N) (acc : Vec Ideal S1x1x1 .f32) : Vec Ideal S1x1x1 .f32 :=
  k0_pay2 (tileX m c n h) (tileY m c n h) acc

theorem first_apply (c : Dev nD) (n : ℕ) (h : n < cfg0.N) (i : S1x1x1.Idx) :
    first m c n h i = k0_pay1 (F := Ideal) i + tileSum m c n := by
  unfold first tileSum
  rw [dif_pos h]
  exact Payload.accumulate_apply _ _ _ i

theorem step_apply (c : Dev nD) (n : ℕ) (h : n < cfg0.N) (acc : Vec Ideal S1x1x1 .f32) (i : S1x1x1.Idx) :
    step m c n h acc i = acc i + tileSum m c n := by
  unfold step tileSum
  rw [dif_pos h]
  exact Payload.accumulate_apply _ _ _ i

/-- The cell after a core's first step. -/
theorem outsAt_first (c : Dev nD) (n : ℕ) (h : n < cfg0.N) (h0 : n % 12 = 0) : outsAt0 m c n h = first m c n h :=
  (outsAt0_A m c ⟨n, h⟩ h0).trans
    (Pieces.out_first c (grid0.coords ⟨n, h⟩) (ms0_0 ⟨n, h⟩) (hs0_0 ⟨n, h⟩) (ms0_1 ⟨n, h⟩) (hs0_1 ⟨n, h⟩) (ms0_2 ⟨n, h⟩)
      (hs0_2 ⟨n, h⟩) ((hcond0_0 ⟨n, h⟩).mpr h0) (iblk m c 0 ⟨n, h⟩) (iblk m c 1 ⟨n, h⟩))

/-- The cell after a later step, from the cell after the step before. -/
theorem outsAt_step (c : Dev nD) (n : ℕ) (h : n + 1 < cfg0.N) (hne : ¬(n + 1) % 12 = 0) :
    outsAt0 m c (n + 1) h = step m c (n + 1) h (outsAt0 m c n (Nat.lt_of_succ_lt h)) :=
  (outsAt0_B m c ⟨n + 1, h⟩ hne).trans
    (Pieces.out_later c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (fun hh => hne ((hcond0_0 ⟨n + 1, h⟩).mp hh)) (iblk m c 0 ⟨n + 1, h⟩)
      (iblk m c 1 ⟨n + 1, h⟩) (outsAt0 m c n (Nat.lt_of_succ_lt h)))

/-- Core `q`'s total: zero plus its twelve tiles' sums. -/
def coreTotal (c : Dev nD) (q : ℕ) : EReal := 0 + ∑ s ∈ Finset.range 12, tileSum m c (12 * q + s)

/-- After a core's last step the cell holds the core's total. -/
theorem outsAt_last (c : Dev nD) (t : Fin cfg0.N) (h11 : t.val % 12 = 11) (i : S1x1x1.Idx) :
    outsAt0 m c t.val t.isLt i = coreTotal m c (t.val / 12) := by
  have h' : 12 * (t.val / 12) + t.val % 12 < cfg0.N := by rw [Nat.div_add_mod]; exact t.isLt
  have e1 : outsAt0 m c t.val t.isLt = Pipeline.accAt (first m c) (step m c) (12 * (t.val / 12)) (t.val % 12) h' :=
    Pipeline.eq_accAt_of_mod (outsAt0 m c) 12 (first m c) (step m c) (outsAt_first m c) (outsAt_step m c) (by norm_num)
      t.val t.isLt h'
  have e2 := Pipeline.accAt_add_apply (first m c) (step m c) (k0_pay1 (F := Ideal)) (fun n _ => tileSum m c n)
    (12 * (t.val / 12)) 11 (fun h i => first_apply m c _ h i) (fun n h acc i _ _ => step_apply m c n h acc i)
    (t.val % 12) (by omega) h' i
  rw [e1, e2, h11, Payload.reset_apply]
  rfl

/-- The output array after the run: row `q` holds core `q`'s total. -/
def totals (c : Dev nD) : Buf (Elt Ideal) ((c : Thread nD τ).loc main_v2) :=
  (fun i : S2x1x1.Idx => coreTotal m c (i 0).val : S2x1x1.Idx → Ideal .f32)

/-- The output's block index at step `t` is `(t / 12, 0, 0)` — decided over the grid. -/
theorem out_index : ∀ t : Fin cfg0.N, win0_2.index t (0 : Fin 3) = t.val / 12 ∧ win0_2.index t (1 : Fin 3) = 0
    ∧ win0_2.index t (2 : Fin 3) = 0 :=
  (by decide +kernel : ∀ t : Fin grid0.N, _)

/-- What a write-back writes is its block of the totals: the cell after a core's last step, into that core's row. -/
theorem flushed_eq (c : Dev nD) (t : Fin cfg0.N) (hf : (cfg0.win 2).flush t = true) :
    (dats m 0 c).flushed 2 t = ((cfg0.win 2).blk t).view.read (Elt Ideal) (totals m c) := by
  have h11 : t.val % 12 = 11 := (flush0_2 t).mp hf
  obtain ⟨e0, -, -⟩ := out_index t
  funext y
  rw [View.read_apply]
  refine (congrFun (after0_2 m c t) ((cfg0.win 2).xinj (grid0.coords t) y)).trans
    ((outsAt_last m c t h11 ((cfg0.win 2).xinj (grid0.coords t) y)).trans ?_)
  show coreTotal m c (t.val / 12) = coreTotal m c ((((cfg0.win 2).blk t).view.emb y) 0).val
  refine congrArg (coreTotal m c) ?_
  show t.val / 12 = win0_2.index t (0 : Fin 3) * 1 + 1 * (y 0).val
  have hy : (y 0).val < 1 := (y 0).isLt
  omega

/-- An index of the output is in step `t`'s block iff each coordinate is in the block's range. -/
theorem mem_blk (t : Fin cfg0.N) (i : S2x1x1.Idx) :
    i ∈ ((cfg0.win 2).blk t).view.set ↔ ∀ a : Fin 3, win0_2.index t a * S1x1x1.size a ≤ (i a).val
      ∧ (i a).val < win0_2.index t a * S1x1x1.size a + S1x1x1.size a := by
  show i ∈ ((View.whole main_v2).slice (win0_2.rect t)).set ↔ _
  rw [View.set_slice_whole, Rect.mem_set_unit]
  exact Iff.rfl

/-- Row `q` is written back after step `12 q + 11`: the write-backs cover the output. -/
theorem covered (i : S2x1x1.Idx) :
    ∃ t : Fin cfg0.N, (cfg0.win 2).flush t = true ∧ i ∈ ((cfg0.win 2).blk t).view.set := by
  have hN : cfg0.N = 24 := N_0
  have hi0 : (i 0).val < 2 := (i 0).isLt
  have hi1 : (i 1).val < 1 := (i 1).isLt
  have hi2 : (i 2).val < 1 := (i 2).isLt
  have hlt : 12 * (i 0).val + 11 < cfg0.N := by omega
  obtain ⟨e0, e1, e2⟩ := out_index ⟨12 * (i 0).val + 11, hlt⟩
  have e0' : win0_2.index ⟨12 * (i 0).val + 11, hlt⟩ (0 : Fin 3) = (i 0).val := by
    rw [e0]; show (12 * (i 0).val + 11) / 12 = (i 0).val; omega
  refine ⟨⟨12 * (i 0).val + 11, hlt⟩, (flush0_2 _).mpr (by show (12 * (i 0).val + 11) % 12 = 11; omega), ?_⟩
  rw [mem_blk]
  intro a
  match a with
  | ⟨0, _⟩ =>
    show win0_2.index ⟨12 * (i 0).val + 11, hlt⟩ (0 : Fin 3) * 1 ≤ (i 0).val
      ∧ (i 0).val < win0_2.index ⟨12 * (i 0).val + 11, hlt⟩ (0 : Fin 3) * 1 + 1
    omega
  | ⟨1, _⟩ =>
    show win0_2.index ⟨12 * (i 0).val + 11, hlt⟩ (1 : Fin 3) * 1 ≤ (i 1).val
      ∧ (i 1).val < win0_2.index ⟨12 * (i 0).val + 11, hlt⟩ (1 : Fin 3) * 1 + 1
    omega
  | ⟨2, _⟩ =>
    show win0_2.index ⟨12 * (i 0).val + 11, hlt⟩ (2 : Fin 3) * 1 ≤ (i 2).val
      ∧ (i 2).val < win0_2.index ⟨12 * (i 0).val + 11, hlt⟩ (2 : Fin 3) * 1 + 1
    omega

/-- So the output array ends holding the two cores' totals. -/
theorem final_out (c : Dev nD) : (dats m 0 c).arrAt 2 cfg0.N = totals m c :=
  (dats m 0 c).arrAt_eq_of_cover 2 (totals m c) (flushed_eq m c) (covered)

end Cert.KernelIdeal.Fold

end
-- ==== Proof.KernelRun.lean ====
/-
  The kernel program's run with its result named (at the ideal instance).

  After the region the program takes row 0 and row 1 of the `2 × 1 × 1` output — the two cores' totals — as scalars
  and adds them. So every execution ends with the result buffer at `coreTotal 0 + coreTotal 1` and the two arguments
  unchanged.
-/
import proofs.«107817_j5712306504420_2_alg».proof.Proof.KernelFold
import Idealize.ShloMosaic.Lib.StableHlo.Run

noncomputable section

open Idealize.ShloMosaic Idealize.ShloMosaic.TcCoe Idealize.SL.Sem
open Idealize.ShloMosaic.Pipeline (Dat)

namespace Cert.KernelIdeal.Run

open Cert.KernelIdeal Cert.KernelIdeal.Gen

variable (m : (ℓ : Loc nD τ sig) → Buf (Elt Ideal) ℓ) (ρ : Dev nD → PrngReg)

/-- The program's result: the sum of the two cores' totals. -/
abbrev result (c : Dev nD) : Buf (Elt Ideal) ((c : Thread nD τ).loc main_v8) :=
  (fun _ => Fold.coreTotal m c 0 + Fold.coreTotal m c 1 : S_.Idx → Ideal .f32)

/-- Row `q` of the totals, sliced out as a `1 × 1 × 1` block, is core `q`'s total. -/
theorem slice_totals (c : Dev nD) (q : ℕ) (hq : q < 2) (h : S2x1x1.Slices ![q, 0, 0] S1x1x1) (j : S1x1x1.Idx) :
    extractStridedSlice (α := EReal) S1x1x1 ![q, 0, 0] (Fold.totals m c) h j = Fold.coreTotal m c q := by
  unfold extractStridedSlice
  show Fold.coreTotal m c (q + (j 0).val) = Fold.coreTotal m c q
  have hj : (j 0).val < 1 := (j 0).isLt
  rw [show q + (j 0).val = q by omega]

/-- The lines after the region leave the result buffer at the sum of the two totals. -/
theorem tail_eq (c : Dev nD) :
    Pipeline.afterTail₀ cfgs (dats m) 0 (V0 m) [hostOps1] c main_v8 = result m c := by
  have hv2 : Pipeline.withArrays (cfgs 0).spec c (V0 m c) (fun w => (dats m 0 c).arrAt w (cfgs 0).N)
      (Proc.devRef .tc main_v2) = Fold.totals m c :=
    (Pipeline.withArrays_arr spec0 launch0.win.arr_inj c (V0 m c) (fun w => (dats m 0 c).arrAt w cfg0.N) 2).trans
      (Fold.final_out m c)
  unfold Pipeline.afterTail₀
  show StableHlo.after hostOps1 _ (Proc.devRef .tc main_v8) = _
  after_results
  rw [hv2]
  funext k
  show extractStridedSlice (α := EReal) S1x1x1 ![0, 0, 0] (Fold.totals m c) slices_S2x1x1_S1x1x1_0_0_0 _
      + extractStridedSlice (α := EReal) S1x1x1 ![1, 0, 0] (Fold.totals m c) slices_S2x1x1_S1x1x1_1_0_0 _ = _
  rw [slice_totals m c 0 (by omega), slice_totals m c 1 (by omega)]

/-- Every execution of the kernel program ends with the result at the sum of the two cores' totals and the arguments
    unchanged. -/
theorem run : θ_run defs (onTc (τ := τ) (main (F := Ideal))) ⟨m, fun _ => 0, ρ⟩ fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v8 (Pipeline.mem_restRefs_of main_v8 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Run

end
-- ==== Proof.KernelTiles.lean ====
/-
  The kernel's tiles as parts of the argument arrays (at the ideal instance).

  Before the region, the two `32 × 3 × 512 × 512` arguments are re-laid as `49152 × 512` arrays (the same entries in
  row-major order). Step `n` of the grid reads, from each, the tile of rows `2048 n … 2048 n + 2047`: entry `(r, l)` of
  the tile is entry `(2048 n + r, l)` of the re-laid array. So a step's addend is the masked L1 sum over those rows.
-/
import proofs.«107817_j5712306504420_2_alg».proof.Proof.KernelFold
import Idealize.ShloMosaic.Lib.StableHlo.Run

noncomputable section

open scoped BigOperators
open Idealize.ShloMosaic Idealize.ShloMosaic.TcCoe Idealize.SL.Sem Idealize.ShloMosaic.ValueIdx

namespace Cert.KernelIdeal.Tiles

open Cert.KernelIdeal Cert.KernelIdeal.Gen

variable (m : (ℓ : Loc nD τ sig) → Buf (Elt Ideal) ℓ)

/-- The first argument re-laid as `49152 × 512`, and the second. -/
abbrev X2 (c : Dev nD) : S49152x512.Idx → Ideal .f32 :=
  shapeCast S49152x512 (m ((c : Thread nD τ).loc main_arg0)) shapeCasts_S32x3x512x512_S49152x512
abbrev Y2 (c : Dev nD) : S49152x512.Idx → Ideal .f32 :=
  shapeCast S49152x512 (m ((c : Thread nD τ).loc main_arg1)) shapeCasts_S32x3x512x512_S49152x512

/-- The region finds the first operand's array at the re-laid first argument. -/
theorem V_v0 (c : Dev nD) : (V m c main_v0 : S49152x512.Idx → Ideal .f32) = X2 m c := by
  show StableHlo.after hostOps0 (fun b => m (c, b)) (Proc.devRef .tc main_v0) = _
  after_results
  rfl

/-- And the second operand's at the re-laid second argument. -/
theorem V_v1 (c : Dev nD) : (V m c main_v1 : S49152x512.Idx → Ideal .f32) = Y2 m c := by
  show StableHlo.after hostOps0 (fun b => m (c, b)) (Proc.devRef .tc main_v1) = _
  after_results
  rfl

/-- Both inputs' block index at step `t` is `(t, 0)` — decided over the grid. -/
theorem in_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row `2048 n + r` of the re-laid arrays, for a row `r` of tile `n`. -/
abbrev row (n : ℕ) (h : n < cfg0.N) (y : S2048x512.Idx) : Fin 49152 :=
  ⟨n * 2048 + (y 0).val, by
    have hN : cfg0.N = 24 := N_0
    have hy : (y 0).val < 2048 := (y 0).isLt
    omega⟩

/-- Entry `y` of the first tile of step `n` is entry `(2048 n + y₀, y₁)` of the re-laid first argument. -/
theorem tileX_apply (c : Dev nD) (n : ℕ) (h : n < cfg0.N) (y : S2048x512.Idx) :
    Fold.tileX m c n h y = X2 m c (ix2 (row n h y) (y 1)) := by
  obtain ⟨e0, e1, -, -⟩ := in_index ⟨n, h⟩
  have e0' : win0_0.index ⟨n, h⟩ (0 : Fin 2) = n := e0
  rw [← V_v0]
  show V m c main_v0 (((cfg0.win 0).blk ⟨n, h⟩).view.emb y) = V m c main_v0 (ix2 (row n h y) (y 1))
  refine congrArg (V m c main_v0) (funext fun a => Fin.ext ?_)
  match a with
  | ⟨0, _⟩ =>
    show win0_0.index ⟨n, h⟩ (0 : Fin 2) * 2048 + 1 * (y 0).val = n * 2048 + (y 0).val
    omega
  | ⟨1, _⟩ =>
    show win0_0.index ⟨n, h⟩ (1 : Fin 2) * 512 + 1 * (y 1).val = (y 1).val
    omega

/-- The same for the second tile. -/
theorem tileY_apply (c : Dev nD) (n : ℕ) (h : n < cfg0.N) (y : S2048x512.Idx) :
    Fold.tileY m c n h y = Y2 m c (ix2 (row n h y) (y 1)) := by
  obtain ⟨-, -, e0, e1⟩ := in_index ⟨n, h⟩
  have e0' : win0_1.index ⟨n, h⟩ (0 : Fin 2) = n := e0
  rw [← V_v1]
  show V m c main_v1 (((cfg0.win 1).blk ⟨n, h⟩).view.emb y) = V m c main_v1 (ix2 (row n h y) (y 1))
  refine congrArg (V m c main_v1) (funext fun a => Fin.ext ?_)
  match a with
  | ⟨0, _⟩ =>
    show win0_1.index ⟨n, h⟩ (0 : Fin 2) * 2048 + 1 * (y 0).val = n * 2048 + (y 0).val
    omega
  | ⟨1, _⟩ =>
    show win0_1.index ⟨n, h⟩ (1 : Fin 2) * 512 + 1 * (y 1).val = (y 1).val
    omega

/-- So step `n`'s addend is the masked L1 sum over rows `2048 n … 2048 n + 2047` of the re-laid arguments. -/
theorem tileSum_eq (c : Dev nD) (n : ℕ) (h : n < cfg0.N) :
    Fold.tileSum m c n
      = ∑ y : S2048x512.Idx, MaskedL1.term (X2 m c (ix2 (row n h y) (y 1))) (Y2 m c (ix2 (row n h y) (y 1))) := by
  unfold Fold.tileSum
  rw [dif_pos h]
  exact Finset.sum_congr rfl fun y _ => by rw [tileX_apply, tileY_apply]

end Cert.KernelIdeal.Tiles

end
-- ==== Proof.Regroup.lean ====
/-
  The kernel's result is the reference's sum, regrouped.

  The two cores' totals are `0 + Σ_{s < 12} tileSum s` and `0 + Σ_{s < 12} tileSum (12 + s)`; together they are the sum
  of the 24 tiles' sums. Tile `n` is rows `2048 n … 2048 n + 2047` of the re-laid `49152 × 512` arrays, so the 24 tiles'
  sums are the sum over every entry of the re-laid arrays; and re-laying keeps every entry, so that is the sum over
  every entry of the two `32 × 3 × 512 × 512` arguments. Only commutativity and associativity of addition on the
  extended reals are used.
-/
import proofs.«107817_j5712306504420_2_alg».proof.Proof.KernelTiles

noncomputable section

open scoped BigOperators
open Idealize.ShloMosaic Idealize.ShloMosaic.TcCoe Idealize.SL.Sem Idealize.ShloMosaic.ValueIdx

namespace Cert.KernelIdeal.Regroup

open Cert.KernelIdeal Cert.KernelIdeal.Gen

variable (m : (ℓ : Loc nD τ sig) → Buf (Elt Ideal) ℓ)

/-- The sum of the two cores' totals is zero plus the masked L1 sum over every entry of the two arguments. -/
theorem totals_eq (c : Dev nD) :
    Fold.coreTotal m c 0 + Fold.coreTotal m c 1
      = 0 + ∑ i : S32x3x512x512.Idx,
          MaskedL1.term (m ((c : Thread nD τ).loc main_arg0) i) (m ((c : Thread nD τ).loc main_arg1) i) := by
  have hN : cfg0.N = 24 := N_0
  have relaid : ∑ j : S49152x512.Idx, MaskedL1.term (Tiles.X2 m c j) (Tiles.Y2 m c j)
      = ∑ i : S32x3x512x512.Idx,
          MaskedL1.term (m ((c : Thread nD τ).loc main_arg0) i) (m ((c : Thread nD τ).loc main_arg1) i) :=
    Fintype.sum_equiv (Shape.reshapeEquiv shapeCasts_S32x3x512x512_S49152x512) _ _ fun _ => rfl
  have tiled := MaskedL1.sum_tiles (fun j : S49152x512.Idx => MaskedL1.term (Tiles.X2 m c j) (Tiles.Y2 m c j))
  calc Fold.coreTotal m c 0 + Fold.coreTotal m c 1
      = (∑ s ∈ Finset.range 12, Fold.tileSum m c s) + ∑ s ∈ Finset.range 12, Fold.tileSum m c (12 + s) := by
        unfold Fold.coreTotal
        simp only [zero_add, mul_zero, mul_one]
    _ = ∑ s ∈ Finset.range (12 + 12), Fold.tileSum m c s := (Finset.sum_range_add _ 12 12).symm
    _ = ∑ p : Fin 24, Fold.tileSum m c p.val := (Fin.sum_univ_eq_sum_range (fun s => Fold.tileSum m c s) 24).symm
    _ = ∑ p : Fin 24, ∑ y : S2048x512.Idx,
          MaskedL1.term (Tiles.X2 m c (ix2 (Tiles.row p.val (by omega) y) (y 1)))
            (Tiles.Y2 m c (ix2 (Tiles.row p.val (by omega) y) (y 1))) :=
        Finset.sum_congr rfl fun p _ => Tiles.tileSum_eq m c p.val (by omega)
    _ = ∑ j : S49152x512.Idx, MaskedL1.term (Tiles.X2 m c j) (Tiles.Y2 m c j) := tiled.symm
    _ = _ := relaid
    _ = _ := (zero_add _).symm

end Cert.KernelIdeal.Regroup

end
-- ==== Proof.ReferenceValue.lean ====
/-
  The reference's result, read on the extended reals.

  The reference compares the two whole `32 × 3 × 512 × 512` arrays entry by entry — `|x − y|` times the indicator
  of `y ≠ 0`, the indicator spelled as an unsigned reading of a one-bit "not equal" — and sums every entry from zero.
  So its one number is `0 + Σ_i term (x i) (y i)`.
-/
import proofs.«107817_j5712306504420_2_alg».proof.Proof.Gen.ReferenceIdeal.Read
import proofs.«107817_j5712306504420_2_alg».proof.Proof.MaskedL1

noncomputable section

open scoped BigOperators
open Idealize.ShloMosaic

namespace Cert.ReferenceIdeal.RefValue

open Cert.ReferenceIdeal Cert.ReferenceIdeal.Read

/-- The reference's result is zero plus the masked L1 sum over every entry of the two arrays. -/
theorem value (x0 x1 : (⟨S32x3x512x512, .f32⟩ : BufTy).Contents (Elt Ideal)) (i : S_.Idx) :
    val_main_v6 (F := Ideal) x0 x1 i = 0 + ∑ j : S32x3x512x512.Idx, MaskedL1.term (x0 j) (x1 j) := by
  rw [val_main_v6_apply]
  refine congrArg₂ (· + ·) ?_ (Finset.sum_congr rfl fun j _ => ?_)
  · exact Ideal.ofBits_zero_f32
  · rw [val_main_v5_apply, val_main_v4_apply, val_main_v3_apply, val_main_v2_apply, val_main_v1_apply, val_main_v0_apply,
      val_main_cst_apply]
    exact MaskedL1.term_of_unsigned (x0 j) (x1 j)

end Cert.ReferenceIdeal.RefValue

end
-- ==== Proof.lean ====
/-
  A masked L1 loss: Σ |X − Y| over the entries where Y ≠ 0, for two f32 arrays of shape 32 × 3 × 512 × 512.

  The kernel re-lays both arrays as 49152 × 512, walks them in 24 tiles of 2048 rows — two cores, twelve tiles each —
  and keeps one running total per core in a one-element output block: reset to zero at a core's first tile, increased by
  each tile's sum of |x − y| · [y ≠ 0], written back after the core's last tile; afterwards the two cores' totals are
  added. The reference multiplies |X − Y| by the indicator of Y ≠ 0 entry by entry and sums everything at once from zero.

  On the extended reals both are 0 + Σ over every entry of |x − y| · [y ≠ 0]:
    · entry by entry the two programs compute the same number (the kernel's ordered "not equal" widened and read signed,
      the reference's unordered "not equal" read unsigned: a bit is 0 or 1 either way, and no two extended reals are
      unordered);
    · a re-laying keeps every entry, so it keeps a total;
    · the kernel's grouping of the total (by tile, by core) is a regrouping of one sum, and addition on the extended reals
      is commutative and associative at the infinities too — the inputs' finiteness is never used.
  The idealized kernel is the kernel's own text read at the ideal instance (nothing was rewritten), and each program's
  frame is its run with the result dropped.
-/
import proofs.«107817_j5712306504420_2_alg».proof.Defs
import proofs.«107817_j5712306504420_2_alg».proof.Proof.Gen.Kernel
import proofs.«107817_j5712306504420_2_alg».proof.Proof.Gen.Kernel.Frame
import proofs.«107817_j5712306504420_2_alg».proof.Proof.Gen.KernelIdeal
import proofs.«107817_j5712306504420_2_alg».proof.Proof.Gen.KernelIdeal.Frame
import proofs.«107817_j5712306504420_2_alg».proof.Proof.Gen.ReferenceIdeal
import proofs.«107817_j5712306504420_2_alg».proof.Proof.Gen.ReferenceIdeal.Run
import proofs.«107817_j5712306504420_2_alg».proof.Proof.Gen.ReferenceIdeal.Read
import proofs.«107817_j5712306504420_2_alg».proof.Proof.Gen.Pre_finite_inputs
import proofs.«107817_j5712306504420_2_alg».proof.Proof.KernelRun
import proofs.«107817_j5712306504420_2_alg».proof.Proof.Regroup
import proofs.«107817_j5712306504420_2_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- From memories that agree on the two arguments, the kernel ends at the sum of its two cores' totals and the reference
    at zero plus the sum over every entry: the same extended real. -/
theorem algebraic : Cert.algebraic_KernelIdeal_ReferenceIdeal := by
  intro m ρ m' ρ' _ hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, (hagree c).1, (hagree c).2]
  funext i
  rw [Cert.ReferenceIdeal.RefValue.value]
  exact (Cert.KernelIdeal.Regroup.totals_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
